-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x64x64 : Shape := ⟨3, ![2, 64, 64]⟩
abbrev S2x64 : Shape := ⟨2, ![2, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x64 .f32) (main_arg1 : FVec F S2x64x64 .f32) (main_arg2 : FVec F S2x64 .f32) (main_arg3 : FVec F S800000 .f32) (main_arg4 : IVec S800000 32) (main_arg5 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S2x64x64 .f32 := Host.absf main_arg1
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_v9 : FVec F S2x64 .f32 := Host.absf main_arg2
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x64 : Shape := ⟨2, ![50000, 64]⟩
abbrev S2x64x64 : Shape := ⟨3, ![2, 64, 64]⟩
abbrev S2x64 : Shape := ⟨2, ![2, 64]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩

abbrev nBuf : Space → Nat
  | .hbm => 48
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x64x64, .f32⟩
  | .hbm, ⟨2, _⟩ => ⟨S2x64, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S800000x1, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S1x64x64, .f32⟩
  | .hbm, ⟨23, _⟩ => ⟨S64x64, .f32⟩
  | .hbm, ⟨24, _⟩ => ⟨S1x64, .f32⟩
  | .hbm, ⟨25, _⟩ => ⟨S64, .f32⟩
  | .hbm, ⟨26, _⟩ => ⟨S50000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S800000x1, .f32⟩
  | .hbm, ⟨37, _⟩ => ⟨S800000x64, .f32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S1x64x64, .f32⟩
  | .hbm, ⟨44, _⟩ => ⟨S64x64, .f32⟩
  | .hbm, ⟨45, _⟩ => ⟨S1x64, .f32⟩
  | .hbm, ⟨46, _⟩ => ⟨S64, .f32⟩
  | .hbm, ⟨47, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  slices_S2x64x64_S1x64x64_1_0_0 : S2x64x64.Slices ![1, 0, 0] S1x64x64
  slices_S2x64_S1x64_1_0 : S2x64.Slices ![1, 0] S1x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x64x64 : Shape := ⟨3, ![2, 64, 64]⟩
abbrev S2x64 : Shape := ⟨2, ![2, 64]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 60
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x64x64, .f32⟩
  | .hbm, ⟨2, _⟩ => ⟨S2x64, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S800000x1, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S1x64x64, .f32⟩
  | .hbm, ⟨23, _⟩ => ⟨S64x64, .f32⟩
  | .hbm, ⟨24, _⟩ => ⟨S50000x64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S50000x64, .f32⟩
  | .hbm, ⟨29, _⟩ => ⟨S50000x64, .f32⟩
  | .hbm, ⟨30, _⟩ => ⟨S_, .f32⟩
  | .hbm, ⟨31, _⟩ => ⟨S50000x64, .f32⟩
  | .hbm, ⟨32, _⟩ => ⟨S50000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S800000x1, .f32⟩
  | .hbm, ⟨43, _⟩ => ⟨S800000x64, .f32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S1x64x64, .f32⟩
  | .hbm, ⟨50, _⟩ => ⟨S64x64, .f32⟩
  | .hbm, ⟨51, _⟩ => ⟨S50000x64, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S50000x64, .f32⟩
  | .hbm, ⟨59, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_v0 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call1_cst : Ref sig .tc := ⟨.hbm, 57, rfl⟩
abbrev main_call1_v0 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x64x64_S1x64x64_1_0_0 : S2x64x64.Slices ![1, 0, 0] S1x64x64
  slices_S2x64_S1x64_1_0 : S2x64.Slices ![1, 0] S1x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The kernel program's whole run with its RESULT array named.

  The program is four segments: host operations, the first dense region, host operations, the second dense region.
  Its run threads "every unscoped buffer holds the boundary's contents" through the segments, so at the end every
  unscoped buffer — the result array `main_v35` among them, not only the six argument arrays — holds the last
  boundary's contents `W4`. This module states the run with that extra conjunct: the result array ends at
  `W4 … main_v35`, the contents the second region's write-backs leave, and the arguments end as launched.
-/
import proofs.«112009_j29265907155090_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array then holds the
    last boundary's contents at its buffer, and each argument array what it was launched with. -/
theorem run_result : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.WholeRun

end
-- ==== Proof.LayerSpec.lean ====
/-
  One graph-convolution layer as mathematics, with no program in sight.

  A layer takes node features `h : [50000, 64]`, sums over the edges into each destination node the source node's
  row scaled by the edge weight (`edgeAgg`: a row gather, a product with the broadcast weights, a scatter-add into
  zeros), multiplies the aggregated rows by a `[64, 64]` weight matrix, adds a bias row, and clamps below at zero:
  entry `(r, q)` of the result is `max (Σ k, agg (r, k) · W (k, q) + b q) 0` (`denseRow`, `denseArr`).
  The edge aggregation is kept as ONE opaque function of its dimension records and operands: both programs apply the
  same host operations there, so nothing about gathers or scatters is ever opened.
-/
import Idealize.ShloMosaic.PureOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.GraphLayer

open Idealize.ShloMosaic Idealize.ShloMosaic.ValueIdx

abbrev SNodes : Shape := ⟨2, ![50000, 64]⟩
abbrev STile : Shape := ⟨2, ![5000, 64]⟩
abbrev SW : Shape := ⟨2, ![64, 64]⟩
abbrev SB : Shape := ⟨1, ![64]⟩
abbrev SWs : Shape := ⟨3, ![2, 64, 64]⟩
abbrev SBs : Shape := ⟨2, ![2, 64]⟩
abbrev SW1 : Shape := ⟨3, ![1, 64, 64]⟩
abbrev SB1 : Shape := ⟨2, ![1, 64]⟩
abbrev SEdges : Shape := ⟨1, ![800000]⟩
abbrev SEdges1 : Shape := ⟨2, ![800000, 1]⟩
abbrev SMsgs : Shape := ⟨2, ![800000, 64]⟩
abbrev SScalar : Shape := ⟨0, ![]⟩

/-- One entry of a dense layer: the row `a` against column `q` of the weights, plus the bias at `q`, clamped below
    at zero (the zero written as the float word both programs print). -/
def denseRow (a : Fin 64 → EReal) (w : SW.Idx → EReal) (b : SB.Idx → EReal) (q : Fin 64) : EReal :=
  max ((∑ k : Fin 64, a k * w (ix2 k q)) + b (ix1 q)) (Ideal.ofBits .f32 0x00000000#32)

/-- The dense layer on the whole node array: entry `(r, q)` is `denseRow` of row `r`. -/
def denseArr (a : SNodes.Idx → EReal) (w : SW.Idx → EReal) (b : SB.Idx → EReal) : SNodes.Idx → EReal :=
  fun i => denseRow (fun k => a (ix2 (i 0) k)) w b (i 1)

/-- The edge aggregation both programs run on the host before the dense part: normalise a negative source index by
    adding the node count, gather the source rows, scale each by its edge weight, scatter-add into a zero array at
    the destination rows. Stated over the operations' dimension records and shape facts, so that each program's
    spelling is an instance of it. -/
def edgeAgg (gd : GatherDims SNodes SEdges1 SMsgs) (sd : ScatterDims SNodes SEdges1 SMsgs)
    (hsE : SScalar.BroadcastsInDim SEdges (![] : Fin 0 → Fin SEdges.rank))
    (hE1 : SEdges.BroadcastsInDim SEdges1 (![0] : Fin 1 → Fin SEdges1.rank))
    (hEM : SEdges1.BroadcastsInDim SMsgs (![0, 1] : Fin 2 → Fin SMsgs.rank))
    (hsN : SScalar.BroadcastsInDim SNodes (![] : Fin 0 → Fin SNodes.rank))
    (h : FVec Ideal SNodes .f32) (ew : FVec Ideal SEdges .f32) (src dst : IVec SEdges 32) : FVec Ideal SNodes .f32 :=
  Host.scatterAdd sd (broadcastInDim SNodes ![] hsN (constant (F := Ideal) SScalar .f32 0x00000000#32))
    (broadcastInDim SEdges1 ![0] hE1 dst)
    (mulf (Host.gather gd h (broadcastInDim SEdges1 ![0] hE1
        (select (cmpi .slt src (broadcastInDim SEdges ![] hsE (constantI SScalar 32 0#32)))
          (addi src (broadcastInDim SEdges ![] hsE (constantI SScalar 32 50000#32))) src)))
      (broadcastInDim SMsgs ![0, 1] hEM (broadcastInDim SEdges1 ![0] hE1 ew)))

/-- Layer `l`'s weight matrix: slice `l` of the stacked weights with its unit axis dropped. -/
def weightOf (l : Nat) (hs : SWs.Slices ![l, 0, 0] SW1) (hc : SW1.ShapeCasts SW) (ws : FVec Ideal SWs .f32) : FVec Ideal SW .f32 :=
  shapeCast SW (extractStridedSlice SW1 ![l, 0, 0] ws hs) hc

/-- Layer `l`'s bias row: slice `l` of the stacked biases with its unit axis dropped. -/
def biasOf (l : Nat) (hs : SBs.Slices ![l, 0] SB1) (hc : SB1.ShapeCasts SB) (bs : FVec Ideal SBs .f32) : FVec Ideal SB .f32 :=
  shapeCast SB (extractStridedSlice SB1 ![l, 0] bs hs) hc

end Cert.GraphLayer

end
-- ==== Proof.KernelPayload.lean ====
/-
  What one grid point of either dense region computes, read at an entry.

  The region's body loads a [5000, 64] tile of aggregated rows, the [64, 64] weights and the [64] bias, multiplies
  tile by weights into a zero accumulator (the roundings to bf16 on the way in are the identity on extended reals),
  adds the bias broadcast over the rows, and takes the maximum with zero. Entry (p, q) of what it stores is therefore
  `denseRow` of row p of the tile: the sum over k of tile (p, k) · weights (k, q), plus bias q, clamped at zero.
  The two regions run the same body text, so the statement is made once per payload name.
-/
import proofs.«112009_j29265907155090_1_alg».proof.Proof.Gen.KernelIdeal.Skeleton
import proofs.«112009_j29265907155090_1_alg».proof.Proof.LayerSpec

noncomputable section

namespace Cert.KernelIdeal.Body

open Idealize.ShloMosaic Idealize.ShloMosaic.ValueIdx Cert.KernelIdeal Cert.KernelIdeal.Gen Cert.GraphLayer

/-- The tile matmul's dimension record: contract axis 1 of the tile with axis 0 of the weights. -/
abbrev tileDot : DotDims S5000x64 S64x64 S5000x64 := dot_S5000x64_S64x64_S5000x64_1_0_0_1_n_n

/-- The left operand is read at the output's row … -/
theorem lhs_row (i : S5000x64.Idx) (u : tileDot.contr.Idx) : (tileDot.lhsIdx i u 0).val = (i 0).val := by
  unfold DotDims.lhsIdx
  rw [dif_neg (show ¬(0 : Fin S5000x64.rank) ∈ tileDot.lhsBatch by decide), dif_pos (show (0 : Fin S5000x64.rank) ∈ tileDot.lhsNonContracting by decide)]
  rfl
/-- … and the contraction index; -/
theorem lhs_contr (i : S5000x64.Idx) (u : tileDot.contr.Idx) : (tileDot.lhsIdx i u 1).val = (u ⟨0, by decide⟩).val :=
  tileDot.lhsIdx_val_of_single rfl i u
/-- the right operand at the contraction index … -/
theorem rhs_contr (i : S5000x64.Idx) (u : tileDot.contr.Idx) : (tileDot.rhsIdx i u 0).val = (u ⟨0, by decide⟩).val :=
  tileDot.rhsIdx_val_of_single rfl i u
/-- … and the output's column. -/
theorem rhs_col (i : S5000x64.Idx) (u : tileDot.contr.Idx) : (tileDot.rhsIdx i u 1).val = (i 1).val := by
  unfold DotDims.rhsIdx
  rw [dif_neg (show ¬(1 : Fin S64x64.rank) ∈ tileDot.rhsBatch by decide), dif_pos (show (1 : Fin S64x64.rank) ∈ tileDot.rhsNonContracting by decide)]
  rfl

/-- The tile matmul into the zero accumulator, at entry (p, q): row p of the left operand against column q of the
    right, summed over the 64 contraction positions. -/
theorem tile_matmul_apply (l : FVec Ideal S5000x64 .bf16) (r : FVec Ideal S64x64 .bf16) (p : Fin 5000) (q : Fin 64) :
    matmul tileDot none l r (constant S5000x64 .f32 0x00000000#32) (ix2 p q) = ∑ k : Fin 64, l (ix2 p k) * r (ix2 k q) := by
  refine (Ideal.matmul_constant_zero_apply tileDot none l r (ix2 p q)).trans ?_
  rw [← Equiv.sum_comp (contrEquiv1 tileDot 64 rfl rfl).symm]
  refine Finset.sum_congr rfl fun k _ => ?_
  have hk := contrEquiv1_symm_val tileDot 64 rfl rfl k
  have el : tileDot.lhsIdx (ix2 p q) ((contrEquiv1 tileDot 64 rfl rfl).symm k) = ix2 p k := funext fun a => Fin.ext (by
    match a with
    | ⟨0, _⟩ => exact lhs_row _ _
    | ⟨1, _⟩ => exact (lhs_contr _ _).trans hk)
  have er : tileDot.rhsIdx (ix2 p q) ((contrEquiv1 tileDot 64 rfl rfl).symm k) = ix2 k q := funext fun a => Fin.ext (by
    match a with
    | ⟨0, _⟩ => exact (rhs_contr _ _).trans hk
    | ⟨1, _⟩ => exact rhs_col _ _)
  rw [el, er]

/-- The first region's stored value at entry (p, q) is the dense layer's entry for row p of the tile. -/
theorem pay0_apply (x0 : Vec Ideal S5000x64 .f32) (x1 : Vec Ideal S64x64 .f32) (x2 : Vec Ideal S64 .f32) (p : Fin 5000) (q : Fin 64) :
    k0_pay1 (F := Ideal) x0 x1 x2 (ix2 p q) = denseRow (fun k => x0 (ix2 p k)) x1 x2 q := by
  unfold k0_pay1 denseRow
  simp only [shapeCast_self]
  rw [maximumf_apply, addf_apply, broadcast_apply]
  refine congrArg₂ max (congrArg₂ (· + ·) ?_ ?_) rfl
  · exact tile_matmul_apply _ _ p q
  · exact (broadcastTo_1b_ab_apply _ _ p q).trans (shapeCast_a_1a_apply x2 _ 0 q)

/-- The second region's stored value, likewise. -/
theorem pay1_apply (x0 : Vec Ideal S5000x64 .f32) (x1 : Vec Ideal S64x64 .f32) (x2 : Vec Ideal S64 .f32) (p : Fin 5000) (q : Fin 64) :
    k1_pay1 (F := Ideal) x0 x1 x2 (ix2 p q) = denseRow (fun k => x0 (ix2 p k)) x1 x2 q := by
  unfold k1_pay1 denseRow
  simp only [shapeCast_self]
  rw [maximumf_apply, addf_apply, broadcast_apply]
  refine congrArg₂ max (congrArg₂ (· + ·) ?_ ?_) rfl
  · exact tile_matmul_apply _ _ p q
  · exact (broadcastTo_1b_ab_apply _ _ p q).trans (shapeCast_a_1a_apply x2 _ 0 q)

/-- A tile entry against an array entry: if row `j 0` of the tile is row `i 0` of the array `a`, the tile's other
    two operands are `w` and `b`, and the columns agree, then the first region's stored value at `j` is the dense
    layer of `a` at `i`. -/
theorem pay0_eq_dense (x0 : Vec Ideal S5000x64 .f32) (x1 : Vec Ideal S64x64 .f32) (x2 : Vec Ideal S64 .f32)
    (a : SNodes.Idx → EReal) (w : SW.Idx → EReal) (b : SB.Idx → EReal) (j : S5000x64.Idx) (i : SNodes.Idx)
    (hrow : ∀ k : Fin 64, x0 (ix2 (j 0) k) = a (ix2 (i 0) k)) (hw : x1 = w) (hb : x2 = b) (hcol : (j 1) = (i 1)) :
    k0_pay1 (F := Ideal) x0 x1 x2 j = denseArr a w b i := by
  obtain ⟨p, q, rfl⟩ : ∃ (p : Fin 5000) (q : Fin 64), j = ix2 p q := ⟨j 0, j 1, eq_ix2 j⟩
  rw [pay0_apply]
  unfold denseArr
  subst hw hb
  rw [show (i 1) = q from hcol.symm]
  exact congrArg (fun r => denseRow r x1 x2 q) (funext hrow)

/-- The same for the second region. -/
theorem pay1_eq_dense (x0 : Vec Ideal S5000x64 .f32) (x1 : Vec Ideal S64x64 .f32) (x2 : Vec Ideal S64 .f32)
    (a : SNodes.Idx → EReal) (w : SW.Idx → EReal) (b : SB.Idx → EReal) (j : S5000x64.Idx) (i : SNodes.Idx)
    (hrow : ∀ k : Fin 64, x0 (ix2 (j 0) k) = a (ix2 (i 0) k)) (hw : x1 = w) (hb : x2 = b) (hcol : (j 1) = (i 1)) :
    k1_pay1 (F := Ideal) x0 x1 x2 j = denseArr a w b i := by
  obtain ⟨p, q, rfl⟩ : ∃ (p : Fin 5000) (q : Fin 64), j = ix2 p q := ⟨j 0, j 1, eq_ix2 j⟩
  rw [pay1_apply]
  unfold denseArr
  subst hw hb
  rw [show (i 1) = q from hcol.symm]
  exact congrArg (fun r => denseRow r x1 x2 q) (funext hrow)

end Cert.KernelIdeal.Body

end
-- ==== Proof.KernelRegion0.lean ====
/-
  The first dense region as a whole-array function of what it finds in memory.

  The region's grid has ten points; point t reads rows 5000·t … 5000·t + 4999 of the aggregated array (its window
  moves with the point), the whole weight matrix and the whole bias row (their windows stay at block 0), and writes
  back rows 5000·t … 5000·t + 4999 of the result. What it writes is the dense layer of exactly those rows, so block
  t of the result is block t of `denseArr` of the three arrays as the region finds them; the ten blocks tile the
  50000 rows (row r lies in block r / 5000), hence the result array ends holding `denseArr` everywhere. All of
  this is stated at an arbitrary region-entry contents `V`.
-/
import proofs.«112009_j29265907155090_1_alg».proof.Proof.Gen.KernelIdeal.Frame
import proofs.«112009_j29265907155090_1_alg».proof.Proof.KernelPayload
import Idealize.ShloMosaic.Lib.Pipeline.Value

set_option maxRecDepth 16384

noncomputable section

namespace Cert.KernelIdeal.Region0

open Cert.KernelIdeal Cert.KernelIdeal.Gen Cert.KernelIdeal.Body Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The printed index maps over the grid: the tile window and the result window sit at block row t, every other
    block coordinate is 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point t writes back is block t of the dense layer of the arrays the region finds. -/
theorem flushed_eq (c : Dev nD) (t : Fin cfg0.N) :
    (dat0 V c).flushed 3 t = ((cfg0.win 3).blk t).view.read (Elt Ideal)
      (denseArr (V c main_v12 : SNodes.Idx → EReal) (V c main_v14 : SW.Idx → EReal) (V c main_v16 : SB.Idx → EReal)) := by
  show (cfg0.win 3).cut (grid0.coords t) ((dat0 V c).after 3 t) = _
  rw [after0_3]
  unfold out0_3
  rw [View.canon_unit_zero origin2]
  simp only [View.ld_unit_zero (S := S5000x64) origin2, View.ld_unit_zero (S := S64x64) origin2, View.ld_unit_zero (S := S64) origin1]
  obtain ⟨e00, e01, e10, e11, e20, e30, e31⟩ := index_facts t
  funext j
  show k0_pay1 (F := Ideal) (iblk0 V c 0 t) (iblk0 V c 1 t) (iblk0 V c 2 t) j
    = denseArr (V c main_v12 : SNodes.Idx → EReal) (V c main_v14 : SW.Idx → EReal) (V c main_v16 : SB.Idx → EReal) (((cfg0.win 3).blk t).view.emb j)
  refine pay0_eq_dense (iblk0 V c 0 t) (iblk0 V c 1 t) (iblk0 V c 2 t) (V c main_v12) (V c main_v14) (V c main_v16) j
    (((cfg0.win 3).blk t).view.emb j) (fun k => ?_) (funext fun y => ?_) (funext fun y => ?_) (Fin.ext ?_)
  · unfold iblk0
    rw [View.read_apply]
    show V c main_v12 (((cfg0.win 0).blk t).view.emb (ix2 (j 0) k)) = V c main_v12 _
    refine congrArg (V c main_v12) (funext fun a => Fin.ext ?_)
    match a with
    | ⟨0, _⟩ =>
      show win0_0.index t (0 : Fin 2) * 5000 + 1 * (j 0).val = win0_3.index t (0 : Fin 2) * 5000 + 1 * (j 0).val
      rw [e00, e30]
    | ⟨1, _⟩ =>
      show win0_0.index t (1 : Fin 2) * 64 + 1 * k.val = k.val
      rw [e01]; omega
  · unfold iblk0
    rw [View.read_apply]
    show V c main_v14 (((cfg0.win 1).blk t).view.emb y) = V c main_v14 y
    refine congrArg (V c main_v14) (funext fun a => Fin.ext ?_)
    match a with
    | ⟨0, _⟩ =>
      show win0_1.index t (0 : Fin 2) * 64 + 1 * (y 0).val = (y 0).val
      rw [e10]; omega
    | ⟨1, _⟩ =>
      show win0_1.index t (1 : Fin 2) * 64 + 1 * (y 1).val = (y 1).val
      rw [e11]; omega
  · unfold iblk0
    rw [View.read_apply]
    show V c main_v16 (((cfg0.win 2).blk t).view.emb y) = V c main_v16 y
    refine congrArg (V c main_v16) (funext fun a => Fin.ext ?_)
    match a with
    | ⟨0, _⟩ =>
      show win0_2.index t (0 : Fin 1) * 64 + 1 * (y 0).val = (y 0).val
      rw [e20]; omega
  · show (j 1).val = win0_3.index t (1 : Fin 2) * 64 + 1 * (j 1).val
    rw [e31]; omega

/-- An index of the result array lies in point t's block iff each coordinate lies in the block's range on its axis. -/
theorem mem_block (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v17).slice (win0_3.rect t)).set ↔ _
  rw [View.set_slice_whole, Rect.mem_set_unit]
  exact Iff.rfl

/-- The ten blocks tile the result array: row r lies in block r / 5000. -/
theorem covered (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hlt : (i 0).val / 5000 < grid0.N := by rw [N_0]; omega
  obtain ⟨-, -, -, -, -, e30, e31⟩ := index_facts (⟨(i 0).val / 5000, hlt⟩ : Fin cfg0.N)
  refine ⟨⟨(i 0).val / 5000, hlt⟩, flush0_3 _, (mem_block _ i).mpr fun a => ?_⟩
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, hlt⟩ (1 : Fin 2) * 64 ≤ (i 1).val ∧ (i 1).val < win0_3.index ⟨(i 0).val / 5000, hlt⟩ (1 : Fin 2) * 64 + 64
    rw [e31]; omega

/-- The result array after the region: the dense layer of the three arrays the region found. -/
theorem region_value (c : Dev nD) :
    (dat0 V c).arrAt 3 cfg0.N
      = denseArr (V c main_v12 : SNodes.Idx → EReal) (V c main_v14 : SW.Idx → EReal) (V c main_v16 : SB.Idx → EReal) :=
  (dat0 V c).arrAt_eq_of_cover 3 _ (fun t _ => flushed_eq V c t) covered

end Cert.KernelIdeal.Region0

end
-- ==== Proof.KernelRegion1.lean ====
/-
  The second dense region as a whole-array function of what it finds in memory.

  The region's grid has ten points; point t reads rows 5000·t … 5000·t + 4999 of the aggregated array (its window
  moves with the point), the whole weight matrix and the whole bias row (their windows stay at block 0), and writes
  back rows 5000·t … 5000·t + 4999 of the result. What it writes is the dense layer of exactly those rows, so block
  t of the result is block t of `denseArr` of the three arrays as the region finds them; the ten blocks tile the
  50000 rows (row r lies in block r / 5000), hence the result array ends holding `denseArr` everywhere. All of
  this is stated at an arbitrary region-entry contents `V`.
-/
import proofs.«112009_j29265907155090_1_alg».proof.Proof.Gen.KernelIdeal.Frame
import proofs.«112009_j29265907155090_1_alg».proof.Proof.KernelPayload
import Idealize.ShloMosaic.Lib.Pipeline.Value

set_option maxRecDepth 16384

noncomputable section

namespace Cert.KernelIdeal.Region1

open Cert.KernelIdeal Cert.KernelIdeal.Gen Cert.KernelIdeal.Body Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The printed index maps over the grid: the tile window and the result window sit at block row t, every other
    block coordinate is 0. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point t writes back is block t of the dense layer of the arrays the region finds. -/
theorem flushed_eq (c : Dev nD) (t : Fin cfg1.N) :
    (dat1 V c).flushed 3 t = ((cfg1.win 3).blk t).view.read (Elt Ideal)
      (denseArr (V c main_v30 : SNodes.Idx → EReal) (V c main_v32 : SW.Idx → EReal) (V c main_v34 : SB.Idx → EReal)) := by
  show (cfg1.win 3).cut (grid1.coords t) ((dat1 V c).after 3 t) = _
  rw [after1_3]
  unfold out1_3
  rw [View.canon_unit_zero origin2]
  simp only [View.ld_unit_zero (S := S5000x64) origin2, View.ld_unit_zero (S := S64x64) origin2, View.ld_unit_zero (S := S64) origin1]
  obtain ⟨e00, e01, e10, e11, e20, e30, e31⟩ := index_facts t
  funext j
  show k1_pay1 (F := Ideal) (iblk1 V c 0 t) (iblk1 V c 1 t) (iblk1 V c 2 t) j
    = denseArr (V c main_v30 : SNodes.Idx → EReal) (V c main_v32 : SW.Idx → EReal) (V c main_v34 : SB.Idx → EReal) (((cfg1.win 3).blk t).view.emb j)
  refine pay1_eq_dense (iblk1 V c 0 t) (iblk1 V c 1 t) (iblk1 V c 2 t) (V c main_v30) (V c main_v32) (V c main_v34) j
    (((cfg1.win 3).blk t).view.emb j) (fun k => ?_) (funext fun y => ?_) (funext fun y => ?_) (Fin.ext ?_)
  · unfold iblk1
    rw [View.read_apply]
    show V c main_v30 (((cfg1.win 0).blk t).view.emb (ix2 (j 0) k)) = V c main_v30 _
    refine congrArg (V c main_v30) (funext fun a => Fin.ext ?_)
    match a with
    | ⟨0, _⟩ =>
      show win1_0.index t (0 : Fin 2) * 5000 + 1 * (j 0).val = win1_3.index t (0 : Fin 2) * 5000 + 1 * (j 0).val
      rw [e00, e30]
    | ⟨1, _⟩ =>
      show win1_0.index t (1 : Fin 2) * 64 + 1 * k.val = k.val
      rw [e01]; omega
  · unfold iblk1
    rw [View.read_apply]
    show V c main_v32 (((cfg1.win 1).blk t).view.emb y) = V c main_v32 y
    refine congrArg (V c main_v32) (funext fun a => Fin.ext ?_)
    match a with
    | ⟨0, _⟩ =>
      show win1_1.index t (0 : Fin 2) * 64 + 1 * (y 0).val = (y 0).val
      rw [e10]; omega
    | ⟨1, _⟩ =>
      show win1_1.index t (1 : Fin 2) * 64 + 1 * (y 1).val = (y 1).val
      rw [e11]; omega
  · unfold iblk1
    rw [View.read_apply]
    show V c main_v34 (((cfg1.win 2).blk t).view.emb y) = V c main_v34 y
    refine congrArg (V c main_v34) (funext fun a => Fin.ext ?_)
    match a with
    | ⟨0, _⟩ =>
      show win1_2.index t (0 : Fin 1) * 64 + 1 * (y 0).val = (y 0).val
      rw [e20]; omega
  · show (j 1).val = win1_3.index t (1 : Fin 2) * 64 + 1 * (j 1).val
    rw [e31]; omega

/-- An index of the result array lies in point t's block iff each coordinate lies in the block's range on its axis. -/
theorem mem_block (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v35).slice (win1_3.rect t)).set ↔ _
  rw [View.set_slice_whole, Rect.mem_set_unit]
  exact Iff.rfl

/-- The ten blocks tile the result array: row r lies in block r / 5000. -/
theorem covered (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hlt : (i 0).val / 5000 < grid1.N := by rw [N_1]; omega
  obtain ⟨-, -, -, -, -, e30, e31⟩ := index_facts (⟨(i 0).val / 5000, hlt⟩ : Fin cfg1.N)
  refine ⟨⟨(i 0).val / 5000, hlt⟩, flush1_3 _, (mem_block _ i).mpr fun a => ?_⟩
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, hlt⟩ (1 : Fin 2) * 64 ≤ (i 1).val ∧ (i 1).val < win1_3.index ⟨(i 0).val / 5000, hlt⟩ (1 : Fin 2) * 64 + 64
    rw [e31]; omega

/-- The result array after the region: the dense layer of the three arrays the region found. -/
theorem region_value (c : Dev nD) :
    (dat1 V c).arrAt 3 cfg1.N
      = denseArr (V c main_v30 : SNodes.Idx → EReal) (V c main_v32 : SW.Idx → EReal) (V c main_v34 : SB.Idx → EReal) :=
  (dat1 V c).arrAt_eq_of_cover 3 _ (fun t _ => flushed_eq V c t) covered

end Cert.KernelIdeal.Region1

end
-- ==== Proof.KernelValue.lean ====
/-
  The kernel program's result array as two dense layers over the shared edge aggregation.

  Before each dense region the host aggregates over the edges (`edgeAgg`) and slices the layer's weights and bias
  out of the stacked arrays; each region then leaves the dense layer of what it finds (the two region modules).
  Reading the boundary contents in program order: the first region finds the aggregation of the launched node
  features, so its result is the first layer; no host operation and no region writes an argument array, so the
  second stretch of host operations aggregates that first layer with the same edge data, and the second region
  leaves the second layer of it in the result array.
-/
import proofs.«112009_j29265907155090_1_alg».proof.Proof.KernelRegion0
import proofs.«112009_j29265907155090_1_alg».proof.Proof.KernelRegion1
import Idealize.ShloMosaic.Lib.StableHlo.Run

set_option maxRecDepth 16384

noncomputable section

namespace Cert.KernelIdeal.Layers

open Cert.KernelIdeal Cert.KernelIdeal.Gen Cert.GraphLayer
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The kernel program's edge aggregation, weights and bias of a layer, as instances of the shared definitions. -/
abbrev agg (h : FVec Ideal S50000x64 .f32) (ew : FVec Ideal S800000 .f32) (src dst : IVec S800000 32) : FVec Ideal S50000x64 .f32 :=
  edgeAgg gather_S50000x64_S800000x1_S800000x64_1_0_n_n_0_1_164 scatter_S50000x64_S800000x1_S800000x64_1_0_0_1
    bcast_S_S800000 bcast_S800000_S800000x1_0 bcast_S800000x1_S800000x64_0_1 bcast_S_S50000x64 h ew src dst
abbrev w0 (ws : FVec Ideal S2x64x64 .f32) : FVec Ideal S64x64 .f32 := weightOf 0 slices_S2x64x64_S1x64x64_0_0_0 shapeCasts_S1x64x64_S64x64 ws
abbrev w1 (ws : FVec Ideal S2x64x64 .f32) : FVec Ideal S64x64 .f32 := weightOf 1 slices_S2x64x64_S1x64x64_1_0_0 shapeCasts_S1x64x64_S64x64 ws
abbrev b0 (bs : FVec Ideal S2x64 .f32) : FVec Ideal S64 .f32 := biasOf 0 slices_S2x64_S1x64_0_0 shapeCasts_S1x64_S64 bs
abbrev b1 (bs : FVec Ideal S2x64 .f32) : FVec Ideal S64 .f32 := biasOf 1 slices_S2x64_S1x64_1_0 shapeCasts_S1x64_S64 bs

/-! ## What the first region finds -/

theorem entry0_agg (c : Dev nD) :
    (V1 m ρ c main_v12 : S50000x64.Idx → EReal)
      = agg (m ((c : Thread nD τ).loc main_arg0)) (m ((c : Thread nD τ).loc main_arg3)) (m ((c : Thread nD τ).loc main_arg4)) (m ((c : Thread nD τ).loc main_arg5)) := by
  show StableHlo.after hostOps0 (W0 m ρ c) (Proc.devRef .tc main_v12) = _
  dsimp only [hostOps0]
  after_results <;> rfl

theorem entry0_w (c : Dev nD) :
    (V1 m ρ c main_v14 : S64x64.Idx → EReal) = w0 (m ((c : Thread nD τ).loc main_arg1)) := by
  show StableHlo.after hostOps0 (W0 m ρ c) (Proc.devRef .tc main_v14) = _
  dsimp only [hostOps0]
  after_results <;> rfl

theorem entry0_b (c : Dev nD) :
    (V1 m ρ c main_v16 : S64.Idx → EReal) = b0 (m ((c : Thread nD τ).loc main_arg2)) := by
  show StableHlo.after hostOps0 (W0 m ρ c) (Proc.devRef .tc main_v16) = _
  dsimp only [hostOps0]
  after_results <;> rfl

/-- The first layer: the node features after the first region. -/
abbrev layer0 (c : Dev nD) : SNodes.Idx → EReal :=
  denseArr (agg (m ((c : Thread nD τ).loc main_arg0)) (m ((c : Thread nD τ).loc main_arg3)) (m ((c : Thread nD τ).loc main_arg4)) (m ((c : Thread nD τ).loc main_arg5)))
    (w0 (m ((c : Thread nD τ).loc main_arg1))) (b0 (m ((c : Thread nD τ).loc main_arg2)))

theorem layer0_out (c : Dev nD) : (W2 m ρ c (Proc.devRef .tc main_v17) : S50000x64.Idx → EReal) = layer0 m c := by
  refine (W2_arr m ρ c 3).trans ?_
  rw [Region0.region_value (V1 m ρ) c, entry0_agg, entry0_w, entry0_b]

/-! ## The arguments pass through the first stretch and the first region unwritten -/

theorem kept1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    dsimp only [hostOps0]
    after_results <;> rfl)
theorem kept2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    dsimp only [hostOps0]
    after_results <;> rfl)
theorem kept3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    dsimp only [hostOps0]
    after_results <;> rfl)
theorem kept4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    dsimp only [hostOps0]
    after_results <;> rfl)
theorem kept5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    dsimp only [hostOps0]
    after_results <;> rfl)

/-! ## What the second region finds -/

theorem entry1_agg (c : Dev nD) :
    (V3 m ρ c main_v30 : S50000x64.Idx → EReal)
      = agg (W2 m ρ c (Proc.devRef .tc main_v17)) (W2 m ρ c (Proc.devRef .tc main_arg3)) (W2 m ρ c (Proc.devRef .tc main_arg4)) (W2 m ρ c (Proc.devRef .tc main_arg5)) := by
  show StableHlo.after hostOps1 (W2 m ρ c) (Proc.devRef .tc main_v30) = _
  dsimp only [hostOps1]
  after_results <;> rfl

theorem entry1_w (c : Dev nD) :
    (V3 m ρ c main_v32 : S64x64.Idx → EReal) = w1 (W2 m ρ c (Proc.devRef .tc main_arg1)) := by
  show StableHlo.after hostOps1 (W2 m ρ c) (Proc.devRef .tc main_v32) = _
  dsimp only [hostOps1]
  after_results <;> rfl

theorem entry1_b (c : Dev nD) :
    (V3 m ρ c main_v34 : S64.Idx → EReal) = b1 (W2 m ρ c (Proc.devRef .tc main_arg2)) := by
  show StableHlo.after hostOps1 (W2 m ρ c) (Proc.devRef .tc main_v34) = _
  dsimp only [hostOps1]
  after_results <;> rfl

/-! ## The result -/

/-- The result array at the end of the run is the second layer over the first. -/
theorem result_eq (c : Dev nD) :
    (W4 m ρ c (Proc.devRef .tc main_v35) : S50000x64.Idx → EReal)
      = denseArr (agg (layer0 m c) (m ((c : Thread nD τ).loc main_arg3)) (m ((c : Thread nD τ).loc main_arg4)) (m ((c : Thread nD τ).loc main_arg5)))
          (w1 (m ((c : Thread nD τ).loc main_arg1))) (b1 (m ((c : Thread nD τ).loc main_arg2))) := by
  refine (W4_arr m ρ c 3).trans ?_
  rw [Region1.region_value (V3 m ρ) c, entry1_agg, entry1_w, entry1_b, layer0_out, kept1, kept2, kept3, kept4, kept5]

end Cert.KernelIdeal.Layers

end
-- ==== Proof.ReferenceValue.lean ====
/-
  The reference program's result as two dense layers over the shared edge aggregation.

  On the host the dense part of a layer is a `dot_general` contracting the 64 features, the bias row broadcast to
  every node, a sum, and `relu` spelt as the maximum with a zero array. Read at entry (r, q) on extended reals that
  is Σ k, A (r, k) · W (k, q) + B q, clamped at zero: `denseArr A W B`, for ANY operands. The reference's whole
  result is this applied twice, each time to the edge aggregation (`edgeAgg`) of the previous node features and to
  the layer's slice of the stacked weights and biases.
-/
import proofs.«112009_j29265907155090_1_alg».proof.Proof.Gen.ReferenceIdeal.Read
import proofs.«112009_j29265907155090_1_alg».proof.Proof.LayerSpec

noncomputable section

namespace Cert.ReferenceIdeal.Layer

open Cert.ReferenceIdeal Cert.ReferenceIdeal.Gen Cert.GraphLayer
open Idealize.ShloMosaic Idealize.ShloMosaic.TcCoe Idealize.ShloMosaic.ValueIdx

/-- The host's dense part of a layer, on any operands, is the dense layer index by index. -/
theorem host_dense (A : FVec Ideal S50000x64 .f32) (W : FVec Ideal S64x64 .f32) (B : FVec Ideal S64 .f32) :
    maximumf (addf (Host.dotGeneral dot_S50000x64_S64x64_S50000x64_1_0_0_1_n_n none A W)
        (broadcastInDim S50000x64 ![0, 1] bcast_S1x64_S50000x64_0_1 (broadcastInDim S1x64 ![1] bcast_S64_S1x64_1 B)))
      (broadcastInDim S50000x64 ![] bcast_S_S50000x64 (constant (F := Ideal) S_ .f32 0x00000000#32))
    = denseArr A W B := by
  funext i
  obtain ⟨r, q, rfl⟩ : ∃ (r : Fin 50000) (q : Fin 64), i = ix2 r q := ⟨i 0, i 1, eq_ix2 i⟩
  rw [maximumf_apply, addf_apply]
  unfold denseArr denseRow
  refine congrArg₂ max (congrArg₂ (· + ·) ?_ ?_) ?_
  · simp only [Host.dotGeneral]
    rw [Ideal.dotGeneral_apply, ← Equiv.sum_comp (contrEquiv1 dot_S50000x64_S64x64_S50000x64_1_0_0_1_n_n 64 rfl rfl).symm]
    refine Finset.sum_congr rfl fun k _ => ?_
    have hk := contrEquiv1_symm_val dot_S50000x64_S64x64_S50000x64_1_0_0_1_n_n 64 rfl rfl k
    have el : dot_S50000x64_S64x64_S50000x64_1_0_0_1_n_n.lhsIdx (ix2 r q) ((contrEquiv1 dot_S50000x64_S64x64_S50000x64_1_0_0_1_n_n 64 rfl rfl).symm k) = ix2 r k := funext fun a => Fin.ext (by
      match a with
      | ⟨0, _⟩ => exact Read.lhs_main_v15_0 _ _
      | ⟨1, _⟩ => exact (Read.lhs_main_v15_1 _ _).trans hk)
    have er : dot_S50000x64_S64x64_S50000x64_1_0_0_1_n_n.rhsIdx (ix2 r q) ((contrEquiv1 dot_S50000x64_S64x64_S50000x64_1_0_0_1_n_n 64 rfl rfl).symm k) = ix2 k q := funext fun a => Fin.ext (by
      match a with
      | ⟨0, _⟩ => exact (Read.rhs_main_v15_0 _ _).trans hk
      | ⟨1, _⟩ => exact Read.rhs_main_v15_1 _ _)
    rw [el, er]
  · refine (broadcastInDim_apply _ bcast_S1x64_S50000x64_0_1 _ (ix2 r q) (ix2 (0 : Fin 1) q) (fun a => ?_)).trans
      (broadcastInDim_apply _ bcast_S64_S1x64_1 B (ix2 (0 : Fin 1) q) (ix1 q) (fun a => ?_))
    · match a with
      | ⟨0, _⟩ => show (0 : Nat) = if (1 : Nat) = 1 then 0 else r.val; rw [if_pos rfl]
      | ⟨1, _⟩ => show q.val = if (64 : Nat) = 1 then 0 else q.val; rw [if_neg (by decide)]
    · match a with
      | ⟨0, _⟩ => show q.val = if (64 : Nat) = 1 then 0 else q.val; rw [if_neg (by decide)]
  · exact broadcastInDim_apply _ bcast_S_S50000x64 _ (ix2 r q) ix0 (fun a => a.elim0)

/-- The reference's edge aggregation, weights and bias of a layer, as instances of the shared definitions. -/
abbrev agg (h : FVec Ideal S50000x64 .f32) (ew : FVec Ideal S800000 .f32) (src dst : IVec S800000 32) : FVec Ideal S50000x64 .f32 :=
  edgeAgg gather_S50000x64_S800000x1_S800000x64_1_0_n_n_0_1_164 scatter_S50000x64_S800000x1_S800000x64_1_0_0_1
    bcast_S_S800000 bcast_S800000_S800000x1_0 bcast_S800000x1_S800000x64_0_1 bcast_S_S50000x64 h ew src dst
abbrev w0 (ws : FVec Ideal S2x64x64 .f32) : FVec Ideal S64x64 .f32 := weightOf 0 slices_S2x64x64_S1x64x64_0_0_0 shapeCasts_S1x64x64_S64x64 ws
abbrev w1 (ws : FVec Ideal S2x64x64 .f32) : FVec Ideal S64x64 .f32 := weightOf 1 slices_S2x64x64_S1x64x64_1_0_0 shapeCasts_S1x64x64_S64x64 ws
abbrev b0 (bs : FVec Ideal S2x64 .f32) : FVec Ideal S64 .f32 := biasOf 0 slices_S2x64_S1x64_0_0 shapeCasts_S1x64_S64 bs
abbrev b1 (bs : FVec Ideal S2x64 .f32) : FVec Ideal S64 .f32 := biasOf 1 slices_S2x64_S1x64_1_0 shapeCasts_S1x64_S64 bs

/-- The reference's result: the second layer over the first. -/
theorem result_eq (x0 : FVec Ideal S50000x64 .f32) (x1 : FVec Ideal S2x64x64 .f32) (x2 : FVec Ideal S2x64 .f32)
    (x3 : FVec Ideal S800000 .f32) (x4 x5 : IVec S800000 32) :
    Read.val_main_v43 (F := Ideal) x0 x1 x2 x3 x4 x5
      = denseArr (agg (denseArr (agg x0 x3 x4 x5) (w0 x1) (b0 x2)) x3 x4 x5) (w1 x1) (b1 x2) := by
  refine (Read.val_main_v43_eq (F := Ideal) x0 x1 x2 x3 x4 x5).symm.trans ?_
  rw [host_dense, host_dense]
  rfl

end Cert.ReferenceIdeal.Layer

end
-- ==== Proof.lean ====
/-
  A two-layer graph convolution: the kernel program against its array reference, over the extended reals.

  Both programs compute, twice over, `h ↦ relu (edgeAgg h · W + b)`: the edge aggregation (gather the source rows,
  scale by the edge weights, scatter-add at the destinations) runs on the host in both, by the same operations; the
  dense part `relu (· W + b)` is a tiled region of ten row blocks in the kernel program and three host operations
  in the reference. On extended reals the two dense parts are one function, entry (r, q) ↦
  max (Σ k, a (r, k) · W (k, q) + b q) 0 — the kernel's roundings to bf16 are the identity there, its matmul into a
  zero accumulator is the plain sum, and tiling by rows does not change an entry — so both results are the same
  two-fold composition. No law beyond that identification is used; in particular finiteness of the inputs is not.
  The frames are the generated ones (the reference's is its generated run with the result dropped), and the kernel
  program's idealization rewrote nothing, so there is nothing to preserve.
-/
import proofs.«112009_j29265907155090_1_alg».proof.Defs
import proofs.«112009_j29265907155090_1_alg».proof.Proof.Gen.Kernel
import proofs.«112009_j29265907155090_1_alg».proof.Proof.Gen.Kernel.Skeleton
import proofs.«112009_j29265907155090_1_alg».proof.Proof.Gen.Kernel.Launch
import proofs.«112009_j29265907155090_1_alg».proof.Proof.Gen.Kernel.Points
import proofs.«112009_j29265907155090_1_alg».proof.Proof.Gen.Kernel.Frame
import proofs.«112009_j29265907155090_1_alg».proof.Proof.Gen.KernelIdeal
import proofs.«112009_j29265907155090_1_alg».proof.Proof.Gen.KernelIdeal.Skeleton
import proofs.«112009_j29265907155090_1_alg».proof.Proof.Gen.KernelIdeal.Launch
import proofs.«112009_j29265907155090_1_alg».proof.Proof.Gen.KernelIdeal.Points
import proofs.«112009_j29265907155090_1_alg».proof.Proof.Gen.KernelIdeal.Frame
import proofs.«112009_j29265907155090_1_alg».proof.Proof.Gen.ReferenceIdeal
import proofs.«112009_j29265907155090_1_alg».proof.Proof.Gen.Pre_finite_inputs
import proofs.«112009_j29265907155090_1_alg».proof.Proof.Gen.ReferenceIdeal.Run
import proofs.«112009_j29265907155090_1_alg».proof.Proof.Gen.ReferenceIdeal.Read
import proofs.«112009_j29265907155090_1_alg».proof.Proof.KernelRun
import proofs.«112009_j29265907155090_1_alg».proof.Proof.KernelValue
import proofs.«112009_j29265907155090_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the second layer over the first, of arguments that agree. -/
theorem algebraic : Cert.algebraic_KernelIdeal_ReferenceIdeal := by
  intro m ρ m' ρ' _ hagree
  refine ⟨fun c => Cert.KernelIdeal.Gen.W4 m ρ c (Proc.devRef .tc Cert.KernelIdeal.main_v35),
    Cert.KernelIdeal.WholeRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v43_eq, Cert.ReferenceIdeal.Layer.result_eq, e0, e1, e2, e3, e4, e5]
  exact (Cert.KernelIdeal.Layers.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
